-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S1024 : Shape := ⟨1, ![1024]⟩
abbrev S32x1024 : Shape := ⟨2, ![32, 1024]⟩
abbrev S32 : Shape := ⟨1, ![32]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v47 : IVec S_ 1) (main_v49 : IVec S1024 1) (main_c_19 : IVec S_ 1) : IVec S_ 1 :=
  let main_v50 : IVec S_ 1 := (fun x v => Host.reduce IntOp.andi x v reducesTo_S1024_S_d0 h_S_) main_v49 main_c_19
  let main_v51 : IVec S_ 1 := andi main_v47 main_v50
  main_v51

def fn_part2 {F : FTy → Type} [FloatOps F] (main_arg2 : FVec F S1024 .f32) (main_arg6 : FVec F S1024 .f32) (main_arg7 : FVec F S32x1024 .f32) (main_arg8 : FVec F S32 .f32) (main_v33 : IVec S_ 1) : IVec S_ 1 :=
  let main_v34 : FVec F S32x1024 .f32 := Host.absf main_arg7
  let main_cst_12 : FVec F S_ .f32 := constant S_ .f32 0x7F800000#32
  let main_v35 : FVec F S32x1024 .f32 := broadcastInDim S32x1024 ![] bcast_S_S32x1024 main_cst_12
  let main_v36 : IVec S32x1024 1 := cmpf .olt main_v34 main_v35
  let main_c_13 : IVec S_ 1 := constantI S_ 1 1#1
  let main_v37 : IVec S_ 1 := (fun x v => Host.reduce IntOp.andi x v reducesTo_S32x1024_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_cst_16 : FVec F S_ .f32 := constant S_ .f32 0x00000000#32
  let main_v44 : FVec F S1024 .f32 := broadcastInDim S1024 ![] bcast_S_S1024 main_cst_16
  let main_v45 : IVec S1024 1 := cmpf .une main_arg2 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v43 main_v46
  let main_cst_18 : FVec F S_ .f32 := constant S_ .f32 0x00000000#32
  let main_v48 : FVec F S1024 .f32 := broadcastInDim S1024 ![] bcast_S_S1024 main_cst_18
  let main_v49 : IVec S1024 1 := cmpf .une main_arg6 main_v48
  let main_c_19 : IVec S_ 1 := constantI S_ 1 1#1
  fn_part3 (F := F) main_v47 main_v49 main_c_19

def fn_part1 {F : FTy → Type} [FloatOps F] (main_arg2 : FVec F S1024 .f32) (main_arg4 : FVec F S32 .f32) (main_arg5 : FVec F S1024x256 .f32) (main_arg6 : FVec F S1024 .f32) (main_arg7 : FVec F S32x1024 .f32) (main_arg8 : FVec F S32 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg2 main_arg6 main_arg7 main_arg8 main_v33

def fn {F : FTy → Type} [FloatOps F] (main_arg0 : FVec F S32768x256 .f32) (main_arg1 : FVec F S1024x256 .f32) (main_arg2 : FVec F S1024 .f32) (main_arg3 : FVec F S32x1024 .f32) (main_arg4 : FVec F S32 .f32) (main_arg5 : FVec F S1024x256 .f32) (main_arg6 : FVec F S1024 .f32) (main_arg7 : FVec F S32x1024 .f32) (main_arg8 : FVec F S32 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg2 main_arg4 main_arg5 main_arg6 main_arg7 main_arg8 main_v13 main_v16
-- ==== Kernel.lean ====
abbrev S32768x256 : Shape := ⟨2, ![32768, 256]⟩
abbrev S1024x256 : Shape := ⟨2, ![1024, 256]⟩
abbrev S1024 : Shape := ⟨1, ![1024]⟩
abbrev S32x1024 : Shape := ⟨2, ![32, 1024]⟩
abbrev S32 : Shape := ⟨1, ![32]⟩
abbrev S256x1024 : Shape := ⟨2, ![256, 1024]⟩
abbrev S256x2048 : Shape := ⟨2, ![256, 2048]⟩
abbrev S_ : Shape := ⟨0, ![]⟩
abbrev S1x1024 : Shape := ⟨2, ![1, 1024]⟩
abbrev S1x2048 : Shape := ⟨2, ![1, 2048]⟩
abbrev S1024x32 : Shape := ⟨2, ![1024, 32]⟩
abbrev S1x32 : Shape := ⟨2, ![1, 32]⟩
abbrev S32768x64 : Shape := ⟨2, ![32768, 64]⟩
abbrev S1024x64 : Shape := ⟨2, ![1024, 64]⟩
abbrev S1024x1 : Shape := ⟨2, ![1024, 1]⟩
abbrev S1024x2048 : Shape := ⟨2, ![1024, 2048]⟩
abbrev S1024x1024 : Shape := ⟨2, ![1024, 1024]⟩

abbrev nBuf : Space → Nat
  | .hbm => 47
  | .vmem => 11
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S1024, .f32⟩
  | .hbm, ⟨3, _⟩ => ⟨S32x1024, .f32⟩
  | .hbm, ⟨4, _⟩ => ⟨S32, .f32⟩
  | .hbm, ⟨5, _⟩ => ⟨S1024x256, .f32⟩
  | .hbm, ⟨6, _⟩ => ⟨S1024, .f32⟩
  | .hbm, ⟨7, _⟩ => ⟨S32x1024, .f32⟩
  | .hbm, ⟨8, _⟩ => ⟨S32, .f32⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S256x2048, .bf16⟩
  | .hbm, ⟨14, _⟩ => ⟨S1024x256, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1024x256, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S1x2048, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S1x2048, .f32⟩
  | .hbm, ⟨40, _⟩ => ⟨S32x1024, .bf16⟩
  | .hbm, ⟨41, _⟩ => ⟨S1024x32, .bf16⟩
  | .hbm, ⟨42, _⟩ => ⟨S32x1024, .bf16⟩
  | .hbm, ⟨43, _⟩ => ⟨S1024x32, .bf16⟩
  | .hbm, ⟨44, _⟩ => ⟨S1x32, .f32⟩
  | .hbm, ⟨45, _⟩ => ⟨S1x32, .f32⟩
  | .hbm, ⟨46, _⟩ => ⟨S32768x64, .f32⟩
  | .local _ .vmem, ⟨0, _⟩ => ⟨S1024x256, .f32⟩
  | .local _ .vmem, ⟨1, _⟩ => ⟨S1024x256, .f32⟩
  | .local _ .vmem, ⟨2, _⟩ => ⟨S256x2048, .bf16⟩
  | .local _ .vmem, ⟨3, _⟩ => ⟨S1x2048, .f32⟩
  | .local _ .vmem, ⟨4, _⟩ => ⟨S1x2048, .f32⟩
  | .local _ .vmem, ⟨5, _⟩ => ⟨S1024x32, .bf16⟩
  | .local _ .vmem, ⟨6, _⟩ => ⟨S1x32, .f32⟩
  | .local _ .vmem, ⟨7, _⟩ => ⟨S1024x32, .bf16⟩
  | .local _ .vmem, ⟨8, _⟩ => ⟨S1x32, .f32⟩
  | .local _ .vmem, ⟨9, _⟩ => ⟨S1024x64, .f32⟩
  | .local _ .vmem, ⟨10, _⟩ => ⟨S1024x64, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S1024x256_S256x1024_1_0 : S1024x256.Transposes [1, 0] S256x1024
  concatenates_S256x1024_S256x1024_S256x2048_d1 : Shape.Concatenates [S256x1024, S256x1024] S256x2048 1
  reducesTo_S1024x256_S1024_d1 : S1024x256.ReducesTo [1] S1024
  h_S_ : 0 < S_.numel
  bcast_S1024_S1x1024_1 : S1024.BroadcastsInDim S1x1024 (![1] : Fin 1 → Fin S1x1024.rank)
  concatenates_S1x1024_S1x1024_S1x2048_d1 : Shape.Concatenates [S1x1024, S1x1024] S1x2048 1
  bcast_S_S1024 : S_.BroadcastsInDim S1024 (![] : Fin 0 → Fin S1024.rank)
  transposes_S32x1024_S1024x32_1_0 : S32x1024.Transposes [1, 0] S1024x32
  bcast_S32_S1x32_1 : S32.BroadcastsInDim S1x32 (![1] : Fin 1 → Fin S1x32.rank)
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x1024 : S1024x2048.Slices ![0, 0] S1024x1024
  slices_S1024x2048_o0_1024_S1024x1024 : S1024x2048.Slices ![0, 1024] S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  concatenates_S1024x32_S1024x32_S1024x64_d1 : Shape.Concatenates [S1024x32, S1024x32] S1024x64 1
  inb_S1024x64_S1024x64_0_0 : ∀ a, (![0, 0] : Fin 2 → Nat) a + S1024x64.size a ≤ S1024x64.size a
  h_S1024x64 : 0 < S1024x64.numel
  dot_S1024x256_S256x2048_S1024x2048_1_0_0_1_n_n_wf : DotDims.WF S1024x256 S256x2048 S1024x2048 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .bf16 = 32 ∨ (Rect.block (s := S256x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S1024x32.size a
  hwx0_4 : ∀ i : grid0.Coords, EltTy.bits .bf16 = 32 ∨ (Rect.block (s := S1024x32) S1024x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S1024x32.size a
  hwx0_6 : ∀ i : grid0.Coords, EltTy.bits .bf16 = 32 ∨ (Rect.block (s := S1024x32) S1024x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S32768x64.size a
  hwx0_8 : ∀ i : grid0.Coords, EltTy.bits .f32 = 32 ∨ (Rect.block (s := S32768x64) S1024x64.size (cc0_transform_8 i) (hinb0_8 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1024x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1024x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S1024 : Shape := ⟨1, ![1024]⟩
abbrev S32x1024 : Shape := ⟨2, ![32, 1024]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S256x1024 : Shape := ⟨2, ![256, 1024]⟩
abbrev S32768x1024 : Shape := ⟨2, ![32768, 1024]⟩
abbrev S1024x32 : Shape := ⟨2, ![1024, 32]⟩
abbrev S32768x32 : Shape := ⟨2, ![32768, 32]⟩
abbrev S1x32 : Shape := ⟨2, ![1, 32]⟩
abbrev S32768x64 : Shape := ⟨2, ![32768, 64]⟩

abbrev nBuf : Space → Nat
  | .hbm => 81
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S1024, .f32⟩
  | .hbm, ⟨3, _⟩ => ⟨S32x1024, .f32⟩
  | .hbm, ⟨4, _⟩ => ⟨S32, .f32⟩
  | .hbm, ⟨5, _⟩ => ⟨S1024x256, .f32⟩
  | .hbm, ⟨6, _⟩ => ⟨S1024, .f32⟩
  | .hbm, ⟨7, _⟩ => ⟨S32x1024, .f32⟩
  | .hbm, ⟨8, _⟩ => ⟨S32, .f32⟩
  | .hbm, ⟨9, _⟩ => ⟨S32768x256, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S256x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1024x32, .f32⟩
  | .hbm, ⟨36, _⟩ => ⟨S32768x32, .f32⟩
  | .hbm, ⟨37, _⟩ => ⟨S1x32, .f32⟩
  | .hbm, ⟨38, _⟩ => ⟨S32768x32, .f32⟩
  | .hbm, ⟨39, _⟩ => ⟨S32768x32, .f32⟩
  | .hbm, ⟨40, _⟩ => ⟨S32768x256, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S1024x256, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S256x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S1024x32, .f32⟩
  | .hbm, ⟨67, _⟩ => ⟨S32768x32, .f32⟩
  | .hbm, ⟨68, _⟩ => ⟨S1x32, .f32⟩
  | .hbm, ⟨69, _⟩ => ⟨S32768x32, .f32⟩
  | .hbm, ⟨70, _⟩ => ⟨S32768x32, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S32768x32, .f32⟩
  | .hbm, ⟨75, _⟩ => ⟨S32768x32, .f32⟩
  | .hbm, ⟨76, _⟩ => ⟨S_, .f32⟩
  | .hbm, ⟨77, _⟩ => ⟨S32768x32, .f32⟩
  | .hbm, ⟨78, _⟩ => ⟨S32768x32, .f32⟩
  | .hbm, ⟨79, _⟩ => ⟨S32768x32, .f32⟩
  | .hbm, ⟨80, _⟩ => ⟨S32768x64, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_cst_8 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S1024x256_S1024_d1 : S1024x256.ReducesTo [1] S1024
  bcast_S1024_S1x1024_1 : S1024.BroadcastsInDim S1x1024 (![1] : Fin 1 → Fin S1x1024.rank)
  transposes_S1024x256_S256x1024_1_0 : S1024x256.Transposes [1, 0] S256x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  bcast_S_S1x1024 : S_.BroadcastsInDim S1x1024 (![] : Fin 0 → Fin S1x1024.rank)
  transposes_S32x1024_S1024x32_1_0 : S32x1024.Transposes [1, 0] S1024x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  concatenates_S32768x32_S32768x32_S32768x64_d1 : Shape.Concatenates [S32768x32, S32768x32] S32768x64 1
  dot_S32768x256_S256x1024_S32768x1024_1_0_0_1_n_n_wf : DotDims.WF S32768x256 S256x1024 S32768x1024 [1] [0] [0] [1] [] []
  dot_S32768x1024_S1024x32_S32768x32_1_0_0_1_n_n_wf : DotDims.WF S32768x1024 S1024x32 S32768x32 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x1024_S1024x32_S32768x32_1_0_0_1_n_n : DotDims S32768x1024 S1024x32 S32768x32 where
  lhsContracting := [1]
  rhsContracting := [0]
  lhsNonContracting := [0]
  rhsNonContracting := [1]
  lhsBatch := []
  rhsBatch := []
  wf := dot_S32768x1024_S1024x32_S32768x32_1_0_0_1_n_n_wf

class Facts : Prop extends Facts₀ where

variable [Facts]
-- ==== Proof.Spec.lean ====
/-
  The function both programs compute, stated once over plain coordinates.

  For a row `x` of the observations (256 numbers) and a centre `c` (256 numbers) the squared distance is taken
  in its expanded form `|x|² - 2·⟨x, c⟩ + |c|²`. A radial feature is `exp` of minus that distance divided by
  `2·|σ|`; a head is the features' product with a weight row plus a bias; the second head is clipped to
  `[-20, 2]` and exponentiated; the result row is the first head's 32 numbers followed by the second's.

  The quotient is written in two ways. One way divides the negated distance by `2·|σ|`. The other multiplies
  `0 - distance` by the reciprocal `1 / (2·|σ|)` computed on its own. On the extended reals the two agree
  whenever `σ ≠ 0` (`expoMul_eq_expoDiv`): off zero a quotient is the product with the inverse, and `1 · y = y`.
  At `σ = 0` they differ when the distance is `0`: `0 · (1/0) = 0 · ⊤ = 0` while `0 / 0` is `⊥`.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The literal `2.0`. -/
abbrev two : EReal := Ideal.ofBits .f32 0x40000000#32
/-- The literal `1.0`. -/
abbrev one : EReal := Ideal.ofBits .f32 0x3F800000#32
/-- The literal `-20.0`, the clip's lower end. -/
abbrev lo : EReal := Ideal.ofBits .f32 0xC1A00000#32

theorem one_eq : one = 1 := by
  simp [one, Ideal.ofBits, Ideal.ieee]
  rw [← EReal.coe_mul]
  norm_num

/-- The expanded squared distance of a row `x` and a centre `c`. -/
def dist2 (x c : Fin 256 → EReal) : EReal :=
  ((∑ d : Fin 256, x d * x d) - two * (∑ d : Fin 256, x d * c d)) + (∑ d : Fin 256, c d * c d)

/-- The feature's exponent as a quotient: minus the distance over `2·|σ|`. -/
def expoDiv (r σ : EReal) : EReal := Ideal.div (-r) (two * max σ (-σ))

/-- The feature's exponent as a product with a reciprocal computed on its own. -/
def expoMul (r σ : EReal) : EReal := (0 - r) * Ideal.div one (two * max σ (-σ))

/-- Off `σ = 0` the divisor `2·|σ|` is not zero, a quotient by it is the product with its inverse, and
    `1 · y⁻¹ = y⁻¹`: the two exponents agree, at infinite distances and infinite `σ` too. -/
theorem expoMul_eq_expoDiv (r σ : EReal) (hσ : σ ≠ 0) : expoMul r σ = expoDiv r σ := by
  have h2 : two ≠ 0 := by
    simp [two, Ideal.ofBits, Ideal.ieee]
  have habs : max σ (-σ) ≠ 0 := fun h => by
    have := (Ideal.zero_lt_max_neg_iff σ).2 hσ
    rw [h] at this
    exact lt_irrefl _ this
  have hd : two * max σ (-σ) ≠ 0 := mul_ne_zero h2 habs
  unfold expoMul expoDiv Ideal.div
  rw [if_neg hd, if_neg hd, one_eq, one_mul, zero_sub]

/-- One head at one row: the features against one weight row, plus the bias. -/
def head (expo : EReal → EReal → EReal) (x : Fin 256 → EReal) (C : Fin 1024 → Fin 256 → EReal) (σ : Fin 1024 → EReal)
    (w : Fin 1024 → EReal) (bias : EReal) : EReal :=
  (∑ k : Fin 1024, Ideal.exp (expo (dist2 x (C k)) (σ k)) * w k) + bias

/-- The second head's last step: clip to `[-20, 2]`, then `exp`. -/
def clipExp (s : EReal) : EReal := Ideal.exp (min two (max lo s))

/-- The two heads of one row, by number. -/
def heads (expo : EReal → EReal → EReal) (x : Fin 256 → EReal)
    (mC : Fin 1024 → Fin 256 → EReal) (mσ : Fin 1024 → EReal) (mw : Fin 32 → Fin 1024 → EReal) (mb : Fin 32 → EReal)
    (sC : Fin 1024 → Fin 256 → EReal) (sσ : Fin 1024 → EReal) (sw : Fin 32 → Fin 1024 → EReal) (sb : Fin 32 → EReal) :
    Fin 2 → Fin 32 → EReal := fun n => match n with
  | ⟨0, _⟩ => fun a => head expo x mC mσ (mw a) (mb a)
  | ⟨1, _⟩ => fun a => clipExp (head expo x sC sσ (sw a) (sb a))

/-- The result array as one function of the nine argument arrays: entry `(b, j)` is head `j / 32`'s number
    `j % 32` at row `b`. -/
def G (expo : EReal → EReal → EReal)
    (obs : (⟨2, ![32768, 256]⟩ : Shape).Idx → EReal)
    (mC : (⟨2, ![1024, 256]⟩ : Shape).Idx → EReal) (mσ : (⟨1, ![1024]⟩ : Shape).Idx → EReal)
    (mw : (⟨2, ![32, 1024]⟩ : Shape).Idx → EReal) (mb : (⟨1, ![32]⟩ : Shape).Idx → EReal)
    (sC : (⟨2, ![1024, 256]⟩ : Shape).Idx → EReal) (sσ : (⟨1, ![1024]⟩ : Shape).Idx → EReal)
    (sw : (⟨2, ![32, 1024]⟩ : Shape).Idx → EReal) (sb : (⟨1, ![32]⟩ : Shape).Idx → EReal) :
    (⟨2, ![32768, 64]⟩ : Shape).Idx → EReal := fun i =>
  heads expo (fun d => obs (ix2 (i 0) d))
    (fun k d => mC (ix2 k d)) (fun k => mσ (ix1 k)) (fun a k => mw (ix2 a k)) (fun a => mb (ix1 a))
    (fun k d => sC (ix2 k d)) (fun k => sσ (ix1 k)) (fun a k => sw (ix2 a k)) (fun a => sb (ix1 a))
    ⟨(i 1).val / 32, by have := idx2_lt1 i; show (i 1).val / 32 < 2; omega⟩
    ⟨(i 1).val % 32, Nat.mod_lt _ (by decide)⟩

/-- Where no `σ` is zero the two spellings of the exponent give one result array. -/
theorem G_expoMul_eq (obs : (⟨2, ![32768, 256]⟩ : Shape).Idx → EReal)
    (mC : (⟨2, ![1024, 256]⟩ : Shape).Idx → EReal) (mσ : (⟨1, ![1024]⟩ : Shape).Idx → EReal)
    (mw : (⟨2, ![32, 1024]⟩ : Shape).Idx → EReal) (mb : (⟨1, ![32]⟩ : Shape).Idx → EReal)
    (sC : (⟨2, ![1024, 256]⟩ : Shape).Idx → EReal) (sσ : (⟨1, ![1024]⟩ : Shape).Idx → EReal)
    (sw : (⟨2, ![32, 1024]⟩ : Shape).Idx → EReal) (sb : (⟨1, ![32]⟩ : Shape).Idx → EReal)
    (hm : ∀ k : Fin 1024, mσ (ix1 k) ≠ 0) (hs : ∀ k : Fin 1024, sσ (ix1 k) ≠ 0) :
    G expoMul obs mC mσ mw mb sC sσ sw sb = G expoDiv obs mC mσ mw mb sC sσ sw sb := by
  funext i
  have e : ∀ (x : Fin 256 → EReal) (C : Fin 1024 → Fin 256 → EReal) (σ : Fin 1024 → EReal) (w : Fin 1024 → EReal)
      (bias : EReal), (∀ k, σ k ≠ 0) → head expoMul x C σ w bias = head expoDiv x C σ w bias := by
    intro x C σ w bias h
    unfold head
    exact congrArg (· + bias) (Finset.sum_congr rfl fun k _ => by rw [expoMul_eq_expoDiv _ _ (h k)])
  have eh : ∀ x : Fin 256 → EReal,
      heads expoMul x (fun k d => mC (ix2 k d)) (fun k => mσ (ix1 k)) (fun a k => mw (ix2 a k)) (fun a => mb (ix1 a))
        (fun k d => sC (ix2 k d)) (fun k => sσ (ix1 k)) (fun a k => sw (ix2 a k)) (fun a => sb (ix1 a))
      = heads expoDiv x (fun k d => mC (ix2 k d)) (fun k => mσ (ix1 k)) (fun a k => mw (ix2 a k)) (fun a => mb (ix1 a))
        (fun k d => sC (ix2 k d)) (fun k => sσ (ix1 k)) (fun a k => sw (ix2 a k)) (fun a => sb (ix1 a)) := by
    intro x
    funext n a
    match n with
    | ⟨0, _⟩ => exact e _ _ _ _ _ hm
    | ⟨1, _⟩ => exact congrArg clipExp (e _ _ _ _ _ hs)
  unfold G
  rw [eh]

end Cert.Rbf

end
-- ==== Proof.PreSigma.lean ====
/-
  The two scale arrays have no zero entry.

  The input predicate is a conjunction of eleven "for all entries" tests, nested to the left: nine say that an array's
  entries are finite, and the last two say that every entry of each scale array differs from zero. From the predicate
  being true we keep the last two conjuncts and read each at one entry: a conjunction of bits is 1 only when both bits
  are, a conjunction over all entries is 1 only when every entry's bit is, and the bit of the test "x differs from y"
  over the extended reals is 1 exactly when x ≠ y. The word the entries are compared with is the pattern of zero.
-/
import proofs.«110908_j50379966382218_2_alg».proof.Pre_finite_inputs
import proofs.«110908_j50379966382218_2_alg».proof.Proof.Gen.Pre_finite_inputs
import Idealize.ShloMosaic.Lib.ValueIdx
import Idealize.ShloMosaic.Lib.ReduceAll
import Idealize.ShloMosaic.PureOps.Ideal.Laws

noncomputable section

namespace Cert.Rbf.Pre

open Idealize.ShloMosaic Idealize.ShloMosaic.ValueIdx

/-- The scalar shape has a single index. -/
instance : Subsingleton Cert.Pre_finite_inputs.S_.Idx := ⟨fun a b => funext fun d => d.elim0⟩

/-- The bit of a Boolean is 1 exactly when the Boolean is true. -/
theorem ofBool_eq_one (b : Bool) : BitVec.ofBool b = 1#1 ↔ b = true := by cases b <;> decide

/-- If the test "x differs from the zero pattern" gives the bit 1, then x ≠ 0. -/
theorem ne_zero_of_une (x : EReal) (h : Ideal.cmp .une x (Ideal.ofBits .f32 0x00000000#32) = 1#1) : x ≠ 0 := by
  rw [Ideal.ofBits_zero_f32] at h
  unfold Ideal.cmp at h
  rw [ofBool_eq_one] at h
  simpa using h

/-- Under the input predicate, every entry of the third and of the seventh array (the two scale arrays) is not zero. -/
theorem sigma_ne_zero (a0 : FVec Ideal Cert.Pre_finite_inputs.S32768x256 .f32) (a1 : FVec Ideal Cert.Pre_finite_inputs.S1024x256 .f32) (a2 : FVec Ideal Cert.Pre_finite_inputs.S1024 .f32) (a3 : FVec Ideal Cert.Pre_finite_inputs.S32x1024 .f32) (a4 : FVec Ideal Cert.Pre_finite_inputs.S32 .f32) (a5 : FVec Ideal Cert.Pre_finite_inputs.S1024x256 .f32) (a6 : FVec Ideal Cert.Pre_finite_inputs.S1024 .f32) (a7 : FVec Ideal Cert.Pre_finite_inputs.S32x1024 .f32) (a8 : FVec Ideal Cert.Pre_finite_inputs.S32 .f32)
    (h : Cert.Pre_finite_inputs.fn (F := Ideal) a0 a1 a2 a3 a4 a5 a6 a7 a8 = (fun _ => 1#1)) :
    (∀ k : Fin 1024, a2 (ValueIdx.ix1 k) ≠ 0) ∧ (∀ k : Fin 1024, a6 (ValueIdx.ix1 k) ≠ 0) := by
  -- the predicate's one bit, as the left-nested conjunction of the eleven tests
  have e := congrFun h ValueIdx.ix0
  dsimp only [Cert.Pre_finite_inputs.fn, Cert.Pre_finite_inputs.fn_part1, Cert.Pre_finite_inputs.fn_part2,
    Cert.Pre_finite_inputs.fn_part3] at e
  -- the outermost conjunct is the test on the seventh array, the next one the test on the third
  obtain ⟨e1, e6⟩ := IntOp.andi_eq_one.1 e
  obtain ⟨-, e2⟩ := IntOp.andi_eq_one.1 e1
  -- each test holds at every entry, and at entry k it compares that entry with the zero pattern
  exact ⟨fun k => ne_zero_of_une _ (Host.reduce_andi_all _ _ _ _ _ e2 (ix1 k)),
    fun k => ne_zero_of_une _ (Host.reduce_andi_all _ _ _ _ _ e6 (ix1 k))⟩

end Cert.Rbf.Pre

end
-- ==== Proof.RefValue.lean ====
/-
  The reference program computes the result array `G` with the feature's exponent written as a quotient.

  Each of its two heads is read one operation at a time at an index written through its coordinates: the squared
  norms of a row and of a centre are sums of squares over the 256 features, their inner product is the contraction's
  sum, the three combine into the expanded squared distance `|x|² - 2·⟨x, c⟩ + |c|²`, the exponent is minus that
  distance over `2·|σ|`, and the head is the sum over the 1024 centres of `exp` of the exponent times a weight, plus
  a bias. The second head is the same function of its own centres, widths, weights and biases, clipped to
  `[-20, 2]` and exponentiated. The result row is the concatenation of the two heads' 32 numbers: column `j` is
  head `j / 32`'s number `j % 32`.
-/
import proofs.«110908_j50379966382218_2_alg».proof.Proof.Spec
import proofs.«110908_j50379966382218_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Rbf.Ref

open Cert.ReferenceIdeal Cert.ReferenceIdeal.Read Idealize.ShloMosaic Idealize.ShloMosaic.ValueIdx

/-- The observations: 32768 rows of 256 extended reals. -/
abbrev Obs := (⟨S32768x256, .f32⟩ : BufTy).Contents (Elt Ideal)
/-- A head's centres: 1024 rows of 256 extended reals. -/
abbrev Cen := (⟨S1024x256, .f32⟩ : BufTy).Contents (Elt Ideal)
/-- A head's widths, one per centre. -/
abbrev Wid := (⟨S1024, .f32⟩ : BufTy).Contents (Elt Ideal)
/-- A head's weights: 32 rows, one weight per centre. -/
abbrev Wts := (⟨S32x1024, .f32⟩ : BufTy).Contents (Elt Ideal)
/-- A head's biases, one per output number. -/
abbrev Bia := (⟨S32, .f32⟩ : BufTy).Contents (Elt Ideal)

/-! ## The first head, stage by stage, at an index written through its coordinates -/

/-- The squared norm of row `i 0` of the observations. -/
theorem rowsq_at (x0 : Obs) (i : S32768.Idx) :
    val_main_v1 (F := Ideal) x0 i = ∑ d : Fin 256, x0 (ix2 (i 0) d) * x0 (ix2 (i 0) d) := by
  rw [val_main_v1_apply, val_main_cst_apply, Ideal.ofBits_def, Ideal.ofBits_zero_f32, zero_add]
  refine Finset.sum_congr rfl fun d _ => ?_
  have e : idx_main_v1 i d = ix2 (i 0) d := funext fun a => by match a with | ⟨0, _⟩ => rfl | ⟨1, _⟩ => rfl
  rw [val_main_v0_apply, e, Ideal.mulf_def]
  rfl

/-- The squared norm of centre `i 0`. -/
theorem censq_at (x1 : Cen) (i : S1024.Idx) :
    val_main_v4 (F := Ideal) x1 i = ∑ d : Fin 256, x1 (ix2 (i 0) d) * x1 (ix2 (i 0) d) := by
  rw [val_main_v4_apply, val_main_cst_0_apply, Ideal.ofBits_def, Ideal.ofBits_zero_f32, zero_add]
  refine Finset.sum_congr rfl fun d _ => ?_
  have e : idx_main_v4 i d = ix2 (i 0) d := funext fun a => by match a with | ⟨0, _⟩ => rfl | ⟨1, _⟩ => rfl
  rw [val_main_v3_apply, e, Ideal.mulf_def]
  rfl

/-- The inner product of row `i 0` with centre `i 1`. -/
theorem inner_at (x0 : Obs) (x1 : Cen) (i : S32768x1024.Idx) :
    val_main_v7 (F := Ideal) x0 x1 i = ∑ d : Fin 256, x0 (ix2 (i 0) d) * x1 (ix2 (i 1) d) := by
  rw [val_main_v7_apply]
  refine Finset.sum_congr rfl fun d _ => ?_
  have el : lidx_main_v7 i d = ix2 (i 0) d := funext fun a => by match a with | ⟨0, _⟩ => rfl | ⟨1, _⟩ => rfl
  have er : idx_main_v6 (ridx_main_v7 i d) = ix2 (i 1) d := funext fun a => by match a with | ⟨0, _⟩ => rfl | ⟨1, _⟩ => rfl
  rw [val_main_v6_apply, el, er]
  rfl

/-- The expanded squared distance of row `i 0` and centre `i 1`. -/
theorem dist_at (x0 : Obs) (x1 : Cen) (i : S32768x1024.Idx) :
    val_main_v13 (F := Ideal) x0 x1 i = dist2 (fun d => x0 (ix2 (i 0) d)) (fun d => x1 (ix2 (i 1) d)) := by
  rw [val_main_v13_apply, val_main_v11_apply, val_main_v10_apply, val_main_v2_apply, rowsq_at, val_main_v9_apply,
    val_main_v8_apply, val_main_cst_1_apply, inner_at, val_main_v12_apply, val_main_v5_apply, censq_at,
    Ideal.addf_def, Ideal.subf_def, Ideal.mulf_def, Ideal.ofBits_def]
  rfl

/-- The feature's exponent at row `i 0` and centre `i 1`. -/
theorem expo_at (x0 : Obs) (x1 : Cen) (x2 : Wid) (i : S32768x1024.Idx) :
    val_main_v20 (F := Ideal) x0 x1 x2 i
      = expoDiv (dist2 (fun d => x0 (ix2 (i 0) d)) (fun d => x1 (ix2 (i 1) d))) (x2 (ix1 (i 1))) := by
  have e : idx_main_v16 (idx_main_v19 i) = ix1 (i 1) := funext fun a => by match a with | ⟨0, _⟩ => rfl
  rw [val_main_v20_apply, val_main_v14_apply, dist_at, val_main_v19_apply, val_main_v18_apply, val_main_v17_apply,
    val_main_cst_2_apply, val_main_v16_apply, val_main_v15_apply, e,
    Ideal.hostDivf_def, Ideal.hostNegf_def, Ideal.negf_def, Ideal.mulf_def, Ideal.hostAbsf_def, Ideal.absf_def, Ideal.ofBits_def]
  rfl

/-- The first head at row `i 0`, number `i 1`: the features against weight row `i 1`, plus bias `i 1`. -/
theorem head_at (x0 : Obs) (x1 : Cen) (x2 : Wid) (x3 : Wts) (x4 : Bia) (i : S32768x32.Idx) :
    val_main_v26 (F := Ideal) x0 x1 x2 x3 x4 i
      = head expoDiv (fun d => x0 (ix2 (i 0) d)) (fun k d => x1 (ix2 k d)) (fun k => x2 (ix1 k))
          (fun k => x3 (ix2 (i 1) k)) (x4 (ix1 (i 1))) := by
  have eb : idx_main_v24 (idx_main_v25 i) = ix1 (i 1) := funext fun a => by match a with | ⟨0, _⟩ => rfl
  rw [val_main_v26_apply, val_main_v23_apply, val_main_v25_apply, val_main_v24_apply, eb, Ideal.addf_def]
  unfold head
  refine congrArg (· + x4 (ix1 (i 1))) (Finset.sum_congr rfl fun k _ => ?_)
  have ew : idx_main_v22 (ridx_main_v23 i k) = ix2 (i 1) k := funext fun a => by match a with | ⟨0, _⟩ => rfl | ⟨1, _⟩ => rfl
  rw [val_main_v21_apply, expo_at, val_main_v22_apply, ew, Ideal.hostUnary_exp_def]
  rfl

/-! ## The second head

The second head's operations are the first head's, one for one, on the other centres, widths, weights and biases. -/

/-- The second head before its clip is the first head's function of its own four arrays. -/
theorem head2_eq (x0 : Obs) (x5 : Cen) (x6 : Wid) (x7 : Wts) (x8 : Bia) :
    val_main_v53 (F := Ideal) x0 x5 x6 x7 x8 = val_main_v26 (F := Ideal) x0 x5 x6 x7 x8 := rfl

/-- The second head at row `i 0`, number `i 1`: clipped to `[-20, 2]`, then `exp`. -/
theorem clip_at (x0 : Obs) (x5 : Cen) (x6 : Wid) (x7 : Wts) (x8 : Bia) (i : S32768x32.Idx) :
    val_main_v55 (F := Ideal) x0 x5 x6 x7 x8 i
      = clipExp (head expoDiv (fun d => x0 (ix2 (i 0) d)) (fun k d => x5 (ix2 k d)) (fun k => x6 (ix1 k))
          (fun k => x7 (ix2 (i 1) k)) (x8 (ix1 (i 1)))) := by
  rw [val_main_v55_apply, val_main_v54_apply, val_main_call0_v4_apply, val_main_call0_v3_apply, val_main_cst_8_apply,
    val_main_call0_v2_apply, val_main_call0_v1_apply, val_main_call0_v0_apply, val_main_cst_7_apply, head2_eq, head_at,
    Ideal.hostUnary_exp_def, Ideal.minimumf_def, Ideal.maximumf_def]
  rfl

/-! ## The two heads side by side -/

/-- The two operands of the concatenation, by number. -/
abbrev Cat (x0 : Obs) (x1 : Cen) (x2 : Wid) (x3 : Wts) (x4 : Bia) (x5 : Cen) (x6 : Wid) (x7 : Wts) (x8 : Bia) :
    Fin 2 → (S32768x32.Idx → EReal) := fun n => match n with
  | ⟨0, _⟩ => val_main_v26 (F := Ideal) x0 x1 x2 x3 x4
  | ⟨1, _⟩ => val_main_v55 (F := Ideal) x0 x5 x6 x7 x8

/-- Operand `n` at row `b`, number `a`, is head `n`'s number `a` at row `b`. -/
theorem cat_eq_heads (x0 : Obs) (x1 : Cen) (x2 : Wid) (x3 : Wts) (x4 : Bia) (x5 : Cen) (x6 : Wid) (x7 : Wts) (x8 : Bia)
    (b : Fin 32768) (n : Fin 2) (a : Fin 32) :
    Cat x0 x1 x2 x3 x4 x5 x6 x7 x8 n (ix2 b a)
      = heads expoDiv (fun d => x0 (ix2 b d))
          (fun k d => x1 (ix2 k d)) (fun k => x2 (ix1 k)) (fun a k => x3 (ix2 a k)) (fun a => x4 (ix1 a))
          (fun k d => x5 (ix2 k d)) (fun k => x6 (ix1 k)) (fun a k => x7 (ix2 a k)) (fun a => x8 (ix1 a)) n a := by
  match n with
  | ⟨0, _⟩ => exact head_at x0 x1 x2 x3 x4 (ix2 b a)
  | ⟨1, _⟩ => exact clip_at x0 x5 x6 x7 x8 (ix2 b a)

/-- The reference's result is the result array `G` with the exponent written as a quotient: column `j` of the
    concatenation is operand `j / 32` at column `j % 32`. -/
theorem ref_is_G (x0 : (⟨Cert.ReferenceIdeal.S32768x256, .f32⟩ : BufTy).Contents (Elt Ideal)) (x1 : (⟨Cert.ReferenceIdeal.S1024x256, .f32⟩ : BufTy).Contents (Elt Ideal)) (x2 : (⟨Cert.ReferenceIdeal.S1024, .f32⟩ : BufTy).Contents (Elt Ideal)) (x3 : (⟨Cert.ReferenceIdeal.S32x1024, .f32⟩ : BufTy).Contents (Elt Ideal)) (x4 : (⟨Cert.ReferenceIdeal.S32, .f32⟩ : BufTy).Contents (Elt Ideal)) (x5 : (⟨Cert.ReferenceIdeal.S1024x256, .f32⟩ : BufTy).Contents (Elt Ideal)) (x6 : (⟨Cert.ReferenceIdeal.S1024, .f32⟩ : BufTy).Contents (Elt Ideal)) (x7 : (⟨Cert.ReferenceIdeal.S32x1024, .f32⟩ : BufTy).Contents (Elt Ideal)) (x8 : (⟨Cert.ReferenceIdeal.S32, .f32⟩ : BufTy).Contents (Elt Ideal)) :
    Cert.ReferenceIdeal.Read.val_main_v56 (F := Ideal) x0 x1 x2 x3 x4 x5 x6 x7 x8 = Cert.Rbf.G Cert.Rbf.expoDiv x0 x1 x2 x3 x4 x5 x6 x7 x8 := by
  funext i
  have hi1 : (i 1).val < 64 := (i 1).isLt
  have hcat : val_main_v56 (F := Ideal) x0 x1 x2 x3 x4 x5 x6 x7 x8 i
      = Cat x0 x1 x2 x3 x4 x5 x6 x7 x8 ⟨(i 1).val / 32, by omega⟩ (ix2 (i 0) ⟨(i 1).val % 32, Nat.mod_lt _ (by decide)⟩) := by
    unfold val_main_v56
    show concatenate S32768x64 1 (List.ofFn fun n : Fin 2 => (⟨S32768x32, Cat x0 x1 x2 x3 x4 x5 x6 x7 x8 n⟩ : (s : Shape) × (s.Idx → _))) _ i = _
    exact concatenate_ofFn_apply (t := S32768x64) (s₁ := S32768x32) (1 : Fin 2) (Cat x0 x1 x2 x3 x4 x5 x6 x7 x8) _ rfl 32 rfl i
      ⟨(i 1).val / 32, by omega⟩ rfl (ix2 (i 0) ⟨(i 1).val % 32, Nat.mod_lt _ (by decide)⟩) rfl
      (fun b hb => by match b with | ⟨0, _⟩ => rfl | ⟨1, _⟩ => exact absurd rfl hb)
  rw [hcat]
  exact cat_eq_heads x0 x1 x2 x3 x4 x5 x6 x7 x8 (i 0) _ _

end Cert.Rbf.Ref

end
-- ==== Proof.BlockFeat.lean ====
/-
  The radial features of one block of rows, read at an index.

  The body holds a block `x` of 1024 observation rows, the centres of both heads side by side as a
  `256 × 2048` matrix `Ct` (column `k` is centre `k`), their squared norms `c2` and the reciprocals `rs`
  as `1 × 2048` rows. Its feature slab at row `p` and column `k` is

      exp ((0 - ((∑ d, x p d · x p d) - 2 · (∑ d, x p d · Ct d k) + c2 k)) · rs k).

  The row sum is a lane reduction kept as a column and broadcast along the columns; the inner products are
  a matrix product into a zero accumulator; both are plain sums on the extended reals. The format changes
  on the way into the product are the identity.
-/
import proofs.«110908_j50379966382218_2_alg».proof.Proof.Spec
import proofs.«110908_j50379966382218_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Blk

open Cert.KernelIdeal Cert.KernelIdeal.Gen Idealize.ShloMosaic Idealize.ShloMosaic.ValueIdx

/-! ## Two layout operations read at coordinates: a vector kept as a column, a column spread over columns -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row sums of squares, as the body spreads them over the slab -/

theorem rowsq_apply (v0 : FVec Ideal S1024x256 .f32) (p : Fin 1024) (k : Fin 2048) :
    broadcastTo S1024x2048 (shapeCast S1024x1 (multiReduction .add [1] S1024 (mulf v0 v0) 0x00000000#32 reduces_S1024x256_S1024 (.inl rfl) rfl) shapeCasts_S1024_S1024x1) broadcasts_S1024x1_S1024x2048 (ix2 p k)
      = ∑ d : Fin 256, v0 (ix2 p d) * v0 (ix2 p d) := by
  rw [broadcastTo_a1_ab_apply, shapeCast_a_a1_apply]
  refine (Ideal.multiReduction_add_single (mulf v0 v0) 0x00000000#32 reduces_S1024x256_S1024 (.inl rfl) rfl (ix1 p)).trans ?_
  show ∑ d : Fin 256, (mulf v0 v0) (reduces_S1024x256_S1024.lift (ix1 p) d) = _
  refine Finset.sum_congr rfl fun d _ => ?_
  have e : reduces_S1024x256_S1024.lift (ix1 p) d = ix2 p d :=
    funext fun a => Fin.ext (by match a with | ⟨0, _⟩ => rfl | ⟨1, _⟩ => rfl)
  rw [e]
  rfl

/-! ## The two matrix products as plain sums -/

theorem lhsA_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhsA_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem rhsA_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhsA_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- Rows against centres: entry `(p, k)` of the product into a zero accumulator is `∑ d, l p d · r d k`. -/
theorem mmA_apply (l : FVec Ideal S1024x256 .bf16) (r : FVec Ideal S256x2048 .bf16) (p : Fin 1024) (k : Fin 2048) :
    matmul dot_S1024x256_S256x2048_S1024x2048_1_0_0_1_n_n none l r (constant S1024x2048 .f32 0x00000000#32) (ix2 p k)
      = ∑ d : Fin 256, l (ix2 p d) * r (ix2 d k) := by
  refine (Ideal.matmul_constant_zero_apply dot_S1024x256_S256x2048_S1024x2048_1_0_0_1_n_n none l r (ix2 p k)).trans ?_
  rw [← Equiv.sum_comp (contrEquiv1 dot_S1024x256_S256x2048_S1024x2048_1_0_0_1_n_n 256 rfl rfl).symm]
  refine Finset.sum_congr rfl fun d _ => ?_
  have hk := contrEquiv1_symm_val dot_S1024x256_S256x2048_S1024x2048_1_0_0_1_n_n 256 rfl rfl d
  have el : dot_S1024x256_S256x2048_S1024x2048_1_0_0_1_n_n.lhsIdx (ix2 p k) ((contrEquiv1 dot_S1024x256_S256x2048_S1024x2048_1_0_0_1_n_n 256 rfl rfl).symm d) = ix2 p d := funext fun a => Fin.ext (by
    match a with
    | ⟨0, _⟩ => exact lhsA_0 _ _
    | ⟨1, _⟩ => exact (lhsA_1 _ _).trans hk)
  have er : dot_S1024x256_S256x2048_S1024x2048_1_0_0_1_n_n.rhsIdx (ix2 p k) ((contrEquiv1 dot_S1024x256_S256x2048_S1024x2048_1_0_0_1_n_n 256 rfl rfl).symm d) = ix2 d k := funext fun a => Fin.ext (by
    match a with
    | ⟨0, _⟩ => exact (rhsA_0 _ _).trans hk
    | ⟨1, _⟩ => exact rhsA_1 _ _)
  rw [el, er]

theorem lhsB_0 (i : S1024x32.Idx) (q : dot_S1024x1024_S1024x32_S1024x32_1_0_0_1_n_n.contr.Idx) :
    (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhsB_1 (i : S1024x32.Idx) (q : dot_S1024x1024_S1024x32_S1024x32_1_0_0_1_n_n.contr.Idx) :
    (dot_S1024x1024_S1024x32_S1024x32_1_0_0_1_n_n.lhsIdx i q 1).val = (q ⟨0, by decide⟩).val :=
  dot_S1024x1024_S1024x32_S1024x32_1_0_0_1_n_n.lhsIdx_val_of_single rfl i q
theorem rhsB_0 (i : S1024x32.Idx) (q : dot_S1024x1024_S1024x32_S1024x32_1_0_0_1_n_n.contr.Idx) :
    (dot_S1024x1024_S1024x32_S1024x32_1_0_0_1_n_n.rhsIdx i q 0).val = (q ⟨0, by decide⟩).val :=
  dot_S1024x1024_S1024x32_S1024x32_1_0_0_1_n_n.rhsIdx_val_of_single rfl i q
theorem rhsB_1 (i : S1024x32.Idx) (q : dot_S1024x1024_S1024x32_S1024x32_1_0_0_1_n_n.contr.Idx) :
    (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-- Features against weights: entry `(p, a)` of the product into a zero accumulator is `∑ k, l p k · r k a`. -/
theorem mmB_apply (l : FVec Ideal S1024x1024 .bf16) (r : FVec Ideal S1024x32 .bf16) (p : Fin 1024) (a : Fin 32) :
    matmul dot_S1024x1024_S1024x32_S1024x32_1_0_0_1_n_n none l r (constant S1024x32 .f32 0x00000000#32) (ix2 p a)
      = ∑ k : Fin 1024, l (ix2 p k) * r (ix2 k a) := by
  refine (Ideal.matmul_constant_zero_apply dot_S1024x1024_S1024x32_S1024x32_1_0_0_1_n_n none l r (ix2 p a)).trans ?_
  rw [← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 p a) ((contrEquiv1 dot_S1024x1024_S1024x32_S1024x32_1_0_0_1_n_n 1024 rfl rfl).symm k) = ix2 p k := funext fun b => Fin.ext (by
    match b with
    | ⟨0, _⟩ => exact lhsB_0 _ _
    | ⟨1, _⟩ => exact (lhsB_1 _ _).trans hk)
  have er : dot_S1024x1024_S1024x32_S1024x32_1_0_0_1_n_n.rhsIdx (ix2 p a) ((contrEquiv1 dot_S1024x1024_S1024x32_S1024x32_1_0_0_1_n_n 1024 rfl rfl).symm k) = ix2 k a := funext fun b => Fin.ext (by
    match b with
    | ⟨0, _⟩ => exact (rhsB_0 _ _).trans hk
    | ⟨1, _⟩ => exact rhsB_1 _ _)
  rw [el, er]

/-! ## The feature slab at an index -/

/-- The exponent's argument the body forms at `(p, k)` from a row's sum of squares `s`, its inner product
    `ip` with the centre, the centre's squared norm and the reciprocal. -/
def feat (s ip c2 rs : EReal) : EReal := Ideal.exp ((0 - ((s - two * ip) + c2)) * rs)

theorem pay2_apply (v0 : FVec Ideal S1024x256 .f32) (v5 : FVec Ideal S256x2048 .bf16) (v12 v18 : FVec Ideal S1x2048 .f32)
    (p : Fin 1024) (k : Fin 2048) :
    k0_pay2 (F := Ideal) v0 v5 v12 v18 (ix2 p k)
      = feat (∑ d : Fin 256, v0 (ix2 p d) * v0 (ix2 p d)) (∑ d : Fin 256, v0 (ix2 p d) * v5 (ix2 d k))
          (v12 (ix2 (0 : Fin 1) k)) (v18 (ix2 (0 : Fin 1) k)) := by
  unfold k0_pay2 feat
  show Ideal.exp ((Ideal.ofBits .f32 0x00000000#32
        - ((broadcastTo S1024x2048 (shapeCast S1024x1 (multiReduction .add [1] S1024 (mulf v0 v0) 0x00000000#32 reduces_S1024x256_S1024 (.inl rfl) rfl) shapeCasts_S1024_S1024x1) broadcasts_S1024x1_S1024x2048 (ix2 p k)
            - Ideal.ofBits .f32 0x40000000#32 * matmul dot_S1024x256_S256x2048_S1024x2048_1_0_0_1_n_n none (truncf .bf16 v0 bitsLt_bf16_f32) (shapeCast S256x2048 v5 shapeCasts_S256x2048_S256x2048) (constant S1024x2048 .f32 0x00000000#32) (ix2 p k))
          + broadcastTo S1024x2048 (shapeCast S1x2048 v12 shapeCasts_S1x2048_S1x2048) broadcasts_S1x2048_S1024x2048 (ix2 p k)))
      * broadcastTo S1024x2048 (shapeCast S1x2048 v18 shapeCasts_S1x2048_S1x2048) broadcasts_S1x2048_S1024x2048 (ix2 p k)) = _
  rw [rowsq_apply, mmA_apply, broadcastTo_1b_ab_apply, broadcastTo_1b_ab_apply, shapeCast_self, shapeCast_self, shapeCast_self,
    Ideal.ofBits_zero_f32]
  rfl

end Cert.Rbf.Blk

end
-- ==== Proof.BlockHeads.lean ====
/-
  What one grid point leaves in the output block, as the two heads of the block's rows.

  The block is 1024 rows by 64 columns: columns 0–31 are the first head, columns 32–63 the second head
  clipped and exponentiated. Each head is the feature slab's half (columns 0–1023 for the first head,
  1024–2047 for the second) times that head's transposed weights, plus its bias row spread over the rows.
  Stated for arbitrary loaded blocks, with what each block holds given as hypotheses over coordinates.
-/
import proofs.«110908_j50379966382218_2_alg».proof.Proof.BlockFeat
import proofs.«110908_j50379966382218_2_alg».proof.Proof.Gen.KernelIdeal.Value

noncomputable section

namespace Cert.Rbf.Blk

open Cert.KernelIdeal Cert.KernelIdeal.Gen Idealize.ShloMosaic Idealize.ShloMosaic.ValueIdx

/-- The first head at row `p`, number `a`: the slab's left half against the weights, plus the bias. -/
theorem pay3_apply (v0 : FVec Ideal S1024x256 .f32) (v5 : FVec Ideal S256x2048 .bf16) (v12 v18 : FVec Ideal S1x2048 .f32)
    (v26 : FVec Ideal S1024x32 .bf16) (v29 : FVec Ideal S1x32 .f32) (p : Fin 1024) (a : Fin 32) :
    k0_pay3 (F := Ideal) v0 v5 v12 v18 v26 v29 (ix2 p a)
      = (∑ k : Fin 1024, k0_pay2 (F := Ideal) v0 v5 v12 v18 (ix2 p (⟨k.val, by have := k.isLt; omega⟩ : Fin 2048)) * v26 (ix2 k a))
        + v29 (ix2 (0 : Fin 1) a) := by
  unfold k0_pay3
  show matmul dot_S1024x1024_S1024x32_S1024x32_1_0_0_1_n_n none (extractStridedSlice S1024x1024 ![0, 0] (k0_pay2 (F := Ideal) v0 v5 v12 v18) slices_S1024x2048_o0_0_S1024x1024) (shapeCast S1024x32 v26 shapeCasts_S1024x32_S1024x32) (constant S1024x32 .f32 0x00000000#32) (ix2 p a)
      + broadcastTo S1024x32 (shapeCast S1x32 v29 shapeCasts_S1x32_S1x32) broadcasts_S1x32_S1024x32 (ix2 p a) = _
  rw [mmB_apply, broadcastTo_1b_ab_apply, shapeCast_self, shapeCast_self]
  refine congrArg (· + v29 (ix2 (0 : Fin 1) a)) (Finset.sum_congr rfl fun k _ => ?_)
  rw [slice2_axis1_apply 0 (k0_pay2 (F := Ideal) v0 v5 v12 v18) slices_S1024x2048_o0_0_S1024x1024 p k
    (⟨k.val, by have := k.isLt; omega⟩ : Fin 2048) (by show k.val = 0 + k.val; omega)]

/-- The second head before its bias at row `p`, number `a`: the slab's right half against the weights. -/
theorem pay4_apply (v0 : FVec Ideal S1024x256 .f32) (v5 : FVec Ideal S256x2048 .bf16) (v12 v18 : FVec Ideal S1x2048 .f32)
    (v33 : FVec Ideal S1024x32 .bf16) (p : Fin 1024) (a : Fin 32) :
    k0_pay4 (F := Ideal) v0 v5 v12 v18 v33 (ix2 p a)
      = ∑ k : Fin 1024, k0_pay2 (F := Ideal) v0 v5 v12 v18 (ix2 p (⟨1024 + k.val, by have := k.isLt; omega⟩ : Fin 2048)) * v33 (ix2 k a) := by
  unfold k0_pay4
  show matmul dot_S1024x1024_S1024x32_S1024x32_1_0_0_1_n_n none (extractStridedSlice S1024x1024 ![0, 1024] (k0_pay2 (F := Ideal) v0 v5 v12 v18) slices_S1024x2048_o0_1024_S1024x1024) (shapeCast S1024x32 v33 shapeCasts_S1024x32_S1024x32) (constant S1024x32 .f32 0x00000000#32) (ix2 p a) = _
  rw [mmB_apply, shapeCast_self]
  refine Finset.sum_congr rfl fun k _ => ?_
  rw [slice2_axis1_apply 1024 (k0_pay2 (F := Ideal) v0 v5 v12 v18) slices_S1024x2048_o0_1024_S1024x1024 p k
    (⟨1024 + k.val, by have := k.isLt; omega⟩ : Fin 2048) rfl]

/-- A feature of the slab is `exp` of the product-form exponent of the expanded distance, once the loaded
    blocks are known to hold the row, the centre, the centre's squared norm and the reciprocal of `2·|σ|`. -/
theorem feat_eq (x c : Fin 256 → EReal) (σ : EReal) :
    feat (∑ d : Fin 256, x d * x d) (∑ d : Fin 256, x d * c d) (∑ d : Fin 256, c d * c d)
        (Ideal.div one (two * max σ (-σ)))
      = Ideal.exp (expoMul (dist2 x c) σ) := rfl

/-- The two heads of row `p` of the block, for loaded blocks that hold: the rows `x`; the centres of both
    heads as columns (first head's in columns 0–1023, second head's in 1024–2047), their squared norms and
    the reciprocals of `2·|σ|` laid out the same way; each head's weights transposed; each head's bias row. -/
theorem cat_apply (P0 : FVec Ideal S1024x256 .f32) (P1 : FVec Ideal S256x2048 .bf16) (P2 P3 : FVec Ideal S1x2048 .f32)
    (P4 : FVec Ideal S1024x32 .bf16) (P5 : FVec Ideal S1x32 .f32) (P6 : FVec Ideal S1024x32 .bf16) (P7 : FVec Ideal S1x32 .f32)
    (p : Fin 1024)
    (mC : Fin 1024 → Fin 256 → EReal) (mσ : Fin 1024 → EReal) (mw : Fin 32 → Fin 1024 → EReal) (mb : Fin 32 → EReal)
    (sC : Fin 1024 → Fin 256 → EReal) (sσ : Fin 1024 → EReal) (sw : Fin 32 → Fin 1024 → EReal) (sb : Fin 32 → EReal)
    (h1m : ∀ (d : Fin 256) (k : Fin 1024), P1 (ix2 d (⟨k.val, by have := k.isLt; omega⟩ : Fin 2048)) = mC k d)
    (h1s : ∀ (d : Fin 256) (k : Fin 1024), P1 (ix2 d (⟨1024 + k.val, by have := k.isLt; omega⟩ : Fin 2048)) = sC k d)
    (h2m : ∀ k : Fin 1024, P2 (ix2 (0 : Fin 1) (⟨k.val, by have := k.isLt; omega⟩ : Fin 2048)) = ∑ d : Fin 256, mC k d * mC k d)
    (h2s : ∀ k : Fin 1024, P2 (ix2 (0 : Fin 1) (⟨1024 + k.val, by have := k.isLt; omega⟩ : Fin 2048)) = ∑ d : Fin 256, sC k d * sC k d)
    (h3m : ∀ k : Fin 1024, P3 (ix2 (0 : Fin 1) (⟨k.val, by have := k.isLt; omega⟩ : Fin 2048)) = Ideal.div one (two * max (mσ k) (-(mσ k))))
    (h3s : ∀ k : Fin 1024, P3 (ix2 (0 : Fin 1) (⟨1024 + k.val, by have := k.isLt; omega⟩ : Fin 2048)) = Ideal.div one (two * max (sσ k) (-(sσ k))))
    (h4 : ∀ (k : Fin 1024) (a : Fin 32), P4 (ix2 k a) = mw a k) (h5 : ∀ a : Fin 32, P5 (ix2 (0 : Fin 1) a) = mb a)
    (h6 : ∀ (k : Fin 1024) (a : Fin 32), P6 (ix2 k a) = sw a k) (h7 : ∀ a : Fin 32, P7 (ix2 (0 : Fin 1) a) = sb a)
    (n : Fin 2) (a : Fin 32) :
    Cert.KernelIdeal.Value.Cat8_0 (F := Ideal) P0 P1 P2 P3 P4 P5 P6 P7 n (ix2 p a)
      = heads expoMul (fun d => P0 (ix2 p d)) mC mσ mw mb sC sσ sw sb n a := by
  match n with
  | ⟨0, _⟩ =>
    show k0_pay3 (F := Ideal) P0 P1 P2 P3 P4 P5 (ix2 p a) = head expoMul (fun d => P0 (ix2 p d)) mC mσ (mw a) (mb a)
    rw [pay3_apply, h5]
    unfold head
    refine congrArg (· + mb a) (Finset.sum_congr rfl fun k _ => ?_)
    rw [pay2_apply, h2m, h3m, h4, ← feat_eq]
    refine congrArg (fun z => feat _ z _ _ * mw a k) (Finset.sum_congr rfl fun d _ => ?_)
    rw [h1m]
  | ⟨1, _⟩ =>
    show Ideal.exp (min (Ideal.ofBits .f32 0x40000000#32) (max (Ideal.ofBits .f32 0xC1A00000#32)
        (k0_pay4 (F := Ideal) P0 P1 P2 P3 P6 (ix2 p a)
          + broadcastTo S1024x32 (shapeCast S1x32 P7 shapeCasts_S1x32_S1x32) broadcasts_S1x32_S1024x32 (ix2 p a))))
      = clipExp (head expoMul (fun d => P0 (ix2 p d)) sC sσ (sw a) (sb a))
    rw [pay4_apply, broadcastTo_1b_ab_apply, shapeCast_self, h7]
    unfold clipExp head
    refine congrArg (fun z => Ideal.exp (min two (max lo (z + sb a)))) (Finset.sum_congr rfl fun k _ => ?_)
    rw [pay2_apply, h2s, h3s, h6, ← feat_eq]
    refine congrArg (fun z => feat _ z _ _ * sw a k) (Finset.sum_congr rfl fun d _ => ?_)
    rw [h1s]

/-- So the block the point leaves, read at row `p` and column `j`, is head `j / 32`'s number `j % 32`. -/
theorem block_apply (P0 : FVec Ideal S1024x256 .f32) (P1 : FVec Ideal S256x2048 .bf16) (P2 P3 : FVec Ideal S1x2048 .f32)
    (P4 : FVec Ideal S1024x32 .bf16) (P5 : FVec Ideal S1x32 .f32) (P6 : FVec Ideal S1024x32 .bf16) (P7 : FVec Ideal S1x32 .f32)
    (p : Fin 1024) (j : Fin 64)
    (mC : Fin 1024 → Fin 256 → EReal) (mσ : Fin 1024 → EReal) (mw : Fin 32 → Fin 1024 → EReal) (mb : Fin 32 → EReal)
    (sC : Fin 1024 → Fin 256 → EReal) (sσ : Fin 1024 → EReal) (sw : Fin 32 → Fin 1024 → EReal) (sb : Fin 32 → EReal)
    (h1m : ∀ (d : Fin 256) (k : Fin 1024), P1 (ix2 d (⟨k.val, by have := k.isLt; omega⟩ : Fin 2048)) = mC k d)
    (h1s : ∀ (d : Fin 256) (k : Fin 1024), P1 (ix2 d (⟨1024 + k.val, by have := k.isLt; omega⟩ : Fin 2048)) = sC k d)
    (h2m : ∀ k : Fin 1024, P2 (ix2 (0 : Fin 1) (⟨k.val, by have := k.isLt; omega⟩ : Fin 2048)) = ∑ d : Fin 256, mC k d * mC k d)
    (h2s : ∀ k : Fin 1024, P2 (ix2 (0 : Fin 1) (⟨1024 + k.val, by have := k.isLt; omega⟩ : Fin 2048)) = ∑ d : Fin 256, sC k d * sC k d)
    (h3m : ∀ k : Fin 1024, P3 (ix2 (0 : Fin 1) (⟨k.val, by have := k.isLt; omega⟩ : Fin 2048)) = Ideal.div one (two * max (mσ k) (-(mσ k))))
    (h3s : ∀ k : Fin 1024, P3 (ix2 (0 : Fin 1) (⟨1024 + k.val, by have := k.isLt; omega⟩ : Fin 2048)) = Ideal.div one (two * max (sσ k) (-(sσ k))))
    (h4 : ∀ (k : Fin 1024) (a : Fin 32), P4 (ix2 k a) = mw a k) (h5 : ∀ a : Fin 32, P5 (ix2 (0 : Fin 1) a) = mb a)
    (h6 : ∀ (k : Fin 1024) (a : Fin 32), P6 (ix2 k a) = sw a k) (h7 : ∀ a : Fin 32, P7 (ix2 (0 : Fin 1) a) = sb a) :
    Cert.KernelIdeal.Value.E8 (F := Ideal) P0 P1 P2 P3 P4 P5 P6 P7 (ix2 p j)
      = heads expoMul (fun d => P0 (ix2 p d)) mC mσ mw mb sC sσ sw sb
          ⟨j.val / 32, by have := j.isLt; omega⟩ ⟨j.val % 32, Nat.mod_lt _ (by decide)⟩ := by
  have e : Cert.KernelIdeal.Value.ix8_0 (ix2 p j) = ix2 p (⟨j.val % 32, Nat.mod_lt _ (by decide)⟩ : Fin 32) :=
    funext fun b => Fin.ext (by match b with | ⟨0, _⟩ => rfl | ⟨1, _⟩ => rfl)
  show Cert.KernelIdeal.Value.Cat8_0 (F := Ideal) P0 P1 P2 P3 P4 P5 P6 P7 (Cert.KernelIdeal.Value.csel8_0 (ix2 p j))
      (Cert.KernelIdeal.Value.ix8_0 (ix2 p j)) = _
  rw [e]
  exact cat_apply P0 P1 P2 P3 P4 P5 P6 P7 p mC mσ mw mb sC sσ sw sb h1m h1s h2m h2s h3m h3s h4 h5 h6 h7 _ _

end Cert.Rbf.Blk

end
-- ==== Proof.HostRows.lean ====
/-
  What the region finds in the arrays the host prepared, read at coordinates.

  Before the region the host transposes each head's centres and weights (the format change on the way is the
  identity), joins the two heads' centres side by side, computes each centre's squared norm and, for each
  width `σ`, the reciprocal `1 / (2·|σ|)`, joins those rows head by head, and lays the biases out as rows.
  Column `k` of a joined array is the first head's entry `k` for `k < 1024` and the second head's entry
  `k - 1024` otherwise.
-/
import proofs.«110908_j50379966382218_2_alg».proof.Proof.Spec
import proofs.«110908_j50379966382218_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Host

open Cert.KernelIdeal Cert.KernelIdeal.Gen Idealize.ShloMosaic Idealize.ShloMosaic.TcCoe Idealize.SL.Sem
  Idealize.ShloMosaic.StableHlo Idealize.ShloMosaic.ValueIdx

/-! ## The host's terms, one head at a time -/

/-- A head's centres transposed: entry `(d, k)` is centre `k`'s coordinate `d`. -/
def cenT (C : FVec Ideal S1024x256 .f32) : FVec Ideal S256x1024 .bf16 :=
  transpose S256x1024 [1, 0] (truncf .bf16 C bitsLt_bf16_f32) transposes_S1024x256_S256x1024_1_0

/-- A head's squared centre norms as a row. -/
def sqRow (C : FVec Ideal S1024x256 .f32) : FVec Ideal S1x1024 .f32 :=
  broadcastInDim S1x1024 ![1] bcast_S1024_S1x1024_1
    (Host.reduceAdd (F := Ideal) (mulf C C) (constant (F := Ideal) S_ .f32 0x00000000#32) reducesTo_S1024x256_S1024_d1 h_S_)

/-- A head's reciprocals `1 / (2·|σ|)` as a row. -/
def rsRow (σ : FVec Ideal S1024 .f32) : FVec Ideal S1x1024 .f32 :=
  broadcastInDim S1x1024 ![1] bcast_S1024_S1x1024_1
    (Host.divf (F := Ideal) (broadcastInDim S1024 ![] bcast_S_S1024 (constant (F := Ideal) S_ .f32 0x3F800000#32))
      (mulf (broadcastInDim S1024 ![] bcast_S_S1024 (constant (F := Ideal) S_ .f32 0x40000000#32)) (Host.absf (F := Ideal) σ)))

/-- A head's weights transposed: entry `(k, a)` is weight `(a, k)`. -/
def wT (w : FVec Ideal S32x1024 .f32) : FVec Ideal S1024x32 .bf16 :=
  transpose S1024x32 [1, 0] (truncf .bf16 w bitsLt_bf16_f32) transposes_S32x1024_S1024x32_1_0

/-- A head's biases as a row. -/
def bRow (b : FVec Ideal S32 .f32) : FVec Ideal S1x32 .f32 := broadcastInDim S1x32 ![1] bcast_S32_S1x32_1 b

theorem cenT_apply (C : FVec Ideal S1024x256 .f32) (d : Fin 256) (k : Fin 1024) : cenT C (ix2 d k) = C (ix2 k d) := by
  unfold cenT
  rw [transpose_ix2_apply]
  rfl

theorem wT_apply (w : FVec Ideal S32x1024 .f32) (k : Fin 1024) (a : Fin 32) : wT w (ix2 k a) = w (ix2 a k) := by
  unfold wT
  rw [transpose_ix2_apply]
  rfl

theorem bRow_apply (b : FVec Ideal S32 .f32) (a : Fin 32) : bRow b (ix2 (0 : Fin 1) a) = b (ix1 a) := by
  unfold bRow
  exact broadcastInDim_apply _ bcast_S32_S1x32_1 b (ix2 (0 : Fin 1) a) (ix1 a) (fun ax => match ax with
    | ⟨0, _⟩ => by show a.val = if (32 : Nat) = 1 then 0 else a.val; rw [if_neg (by decide)])

theorem sqRow_apply (C : FVec Ideal S1024x256 .f32) (k : Fin 1024) :
    sqRow C (ix2 (0 : Fin 1) k) = ∑ d : Fin 256, C (ix2 k d) * C (ix2 k d) := by
  unfold sqRow
  refine (broadcastInDim_apply _ bcast_S1024_S1x1024_1 _ (ix2 (0 : Fin 1) k) (ix1 k) (fun ax => match ax with
    | ⟨0, _⟩ => by show k.val = if (1024 : Nat) = 1 then 0 else k.val; rw [if_neg (by decide)])).trans ?_
  simp only [Host.reduceAdd, Ideal.hostReduceAdd_def]
  rw [Ideal.hostReduceAdd_single reducesTo_S1024x256_S1024_d1 (by decide)]
  show Ideal.ofBits .f32 0x00000000#32 + _ = _
  rw [Ideal.ofBits_zero_f32, zero_add]
  refine Finset.sum_congr rfl fun d _ => ?_
  exact congrArg (fun i => C i * C i) (funext fun a => Fin.ext (by match a with | ⟨0, _⟩ => rfl | ⟨1, _⟩ => rfl))

theorem rsRow_apply (σ : FVec Ideal S1024 .f32) (k : Fin 1024) :
    rsRow σ (ix2 (0 : Fin 1) k) = Ideal.div one (two * max (σ (ix1 k)) (-(σ (ix1 k)))) := by
  unfold rsRow
  refine (broadcastInDim_apply _ bcast_S1024_S1x1024_1 _ (ix2 (0 : Fin 1) k) (ix1 k) (fun ax => match ax with
    | ⟨0, _⟩ => by show k.val = if (1024 : Nat) = 1 then 0 else k.val; rw [if_neg (by decide)])).trans ?_
  rfl

/-! ## Two rows or two blocks of columns joined: the left part and the right part -/

theorem joinC_left (A B : FVec Ideal S256x1024 .bf16) (d : Fin 256) (k : Fin 1024) :
    concatenate S256x2048 1 [⟨S256x1024, A⟩, ⟨S256x1024, B⟩] concatenates_S256x1024_S256x1024_S256x2048_d1
      (ix2 d (⟨k.val, by have := k.isLt; omega⟩ : Fin 2048)) = A (ix2 d k) :=
  concatenate_pair_apply_left (t := S256x2048) (s₁ := S256x1024) (s₂ := S256x1024) (1 : Fin 2) A B concatenates_S256x1024_S256x1024_S256x2048_d1 _ rfl (ix2 d k)
    (fun b => by match b with | ⟨0, _⟩ => rfl | ⟨1, _⟩ => rfl)

theorem joinC_right (A B : FVec Ideal S256x1024 .bf16) (d : Fin 256) (k : Fin 1024) :
    concatenate S256x2048 1 [⟨S256x1024, A⟩, ⟨S256x1024, B⟩] concatenates_S256x1024_S256x1024_S256x2048_d1
      (ix2 d (⟨1024 + k.val, by have := k.isLt; omega⟩ : Fin 2048)) = B (ix2 d k) :=
  concatenate_pair_apply_right (t := S256x2048) (s₁ := S256x1024) (s₂ := S256x1024) (1 : Fin 2) A B concatenates_S256x1024_S256x1024_S256x2048_d1 _ rfl rfl (ix2 d k)
    (fun b hb => by match b with | ⟨0, _⟩ => rfl | ⟨1, _⟩ => exact absurd rfl hb)
    (by show k.val + 1024 = 1024 + k.val; omega)

theorem joinR_left (A B : FVec Ideal S1x1024 .f32) (k : Fin 1024) :
    concatenate S1x2048 1 [⟨S1x1024, A⟩, ⟨S1x1024, B⟩] concatenates_S1x1024_S1x1024_S1x2048_d1
      (ix2 (0 : Fin 1) (⟨k.val, by have := k.isLt; omega⟩ : Fin 2048)) = A (ix2 (0 : Fin 1) k) :=
  concatenate_pair_apply_left (t := S1x2048) (s₁ := S1x1024) (s₂ := S1x1024) (1 : Fin 2) A B concatenates_S1x1024_S1x1024_S1x2048_d1 _ rfl (ix2 (0 : Fin 1) k)
    (fun b => by match b with | ⟨0, _⟩ => rfl | ⟨1, _⟩ => rfl)

theorem joinR_right (A B : FVec Ideal S1x1024 .f32) (k : Fin 1024) :
    concatenate S1x2048 1 [⟨S1x1024, A⟩, ⟨S1x1024, B⟩] concatenates_S1x1024_S1x1024_S1x2048_d1
      (ix2 (0 : Fin 1) (⟨1024 + k.val, by have := k.isLt; omega⟩ : Fin 2048)) = B (ix2 (0 : Fin 1) k) :=
  concatenate_pair_apply_right (t := S1x2048) (s₁ := S1x1024) (s₂ := S1x1024) (1 : Fin 2) A B concatenates_S1x1024_S1x1024_S1x2048_d1 _ rfl rfl (ix2 (0 : Fin 1) k)
    (fun b hb => by match b with | ⟨0, _⟩ => rfl | ⟨1, _⟩ => exact absurd rfl hb)
    (by show k.val + 1024 = 1024 + k.val; omega)

/-! ## The arrays as the region finds them -/

variable (m : (ℓ : Loc nD τ sig) → Buf (Elt Ideal) ℓ)

set_option maxHeartbeats 4000000 in
theorem V_v4 (c : Dev nD) : (V m c main_v4 : S256x2048.Idx → EReal)
    = concatenate S256x2048 1 [⟨S256x1024, cenT (m ((c : Thread nD τ).loc main_arg1))⟩, ⟨S256x1024, cenT (m ((c : Thread nD τ).loc main_arg5))⟩] concatenates_S256x1024_S256x1024_S256x2048_d1 := by
  dsimp only [Gen.V, Gen.hostOps0]
  after_results_simp <;> rfl

set_option maxHeartbeats 4000000 in
theorem V_v11 (c : Dev nD) : (V m c main_v11 : S1x2048.Idx → EReal)
    = concatenate S1x2048 1 [⟨S1x1024, sqRow (m ((c : Thread nD τ).loc main_arg1))⟩, ⟨S1x1024, sqRow (m ((c : Thread nD τ).loc main_arg5))⟩] concatenates_S1x1024_S1x1024_S1x2048_d1 := by
  dsimp only [Gen.V, Gen.hostOps0]
  after_results_simp <;> rfl

set_option maxHeartbeats 4000000 in
theorem V_v24 (c : Dev nD) : (V m c main_v24 : S1x2048.Idx → EReal)
    = concatenate S1x2048 1 [⟨S1x1024, rsRow (m ((c : Thread nD τ).loc main_arg2))⟩, ⟨S1x1024, rsRow (m ((c : Thread nD τ).loc main_arg6))⟩] concatenates_S1x1024_S1x1024_S1x2048_d1 := by
  dsimp only [Gen.V, Gen.hostOps0]
  after_results_simp <;> rfl

set_option maxHeartbeats 4000000 in
theorem V_v26 (c : Dev nD) : (V m c main_v26 : S1024x32.Idx → EReal) = wT (m ((c : Thread nD τ).loc main_arg3)) := by
  dsimp only [Gen.V, Gen.hostOps0]
  after_results_simp <;> rfl

set_option maxHeartbeats 4000000 in
theorem V_v28 (c : Dev nD) : (V m c main_v28 : S1024x32.Idx → EReal) = wT (m ((c : Thread nD τ).loc main_arg7)) := by
  dsimp only [Gen.V, Gen.hostOps0]
  after_results_simp <;> rfl

set_option maxHeartbeats 4000000 in
theorem V_v29 (c : Dev nD) : (V m c main_v29 : S1x32.Idx → EReal) = bRow (m ((c : Thread nD τ).loc main_arg4)) := by
  dsimp only [Gen.V, Gen.hostOps0]
  after_results_simp <;> rfl

set_option maxHeartbeats 4000000 in
theorem V_v30 (c : Dev nD) : (V m c main_v30 : S1x32.Idx → EReal) = bRow (m ((c : Thread nD τ).loc main_arg8)) := by
  dsimp only [Gen.V, Gen.hostOps0]
  after_results_simp <;> rfl

end Cert.Rbf.Host

end
-- ==== Proof.KernelArray.lean ====
/-
  The kernel's result array is the function `G` with the exponent in its product form.

  Grid point `t` works on rows `1024·t … 1024·t + 1023`: it reads that block of the observations, reads the
  host-prepared arrays whole, and writes back a `1024 × 64` block of the result. What it writes is, row by
  row, the two heads of that row, which is the block of `G` at those rows. The 32 blocks tile the
  `32768 × 64` result, so after the run the result array is `G` of the argument arrays.
-/
import proofs.«110908_j50379966382218_2_alg».proof.Proof.BlockHeads
import proofs.«110908_j50379966382218_2_alg».proof.Proof.HostRows
import proofs.«110908_j50379966382218_2_alg».proof.Proof.Gen.KernelIdeal.Value
import Idealize.ShloMosaic.Lib.Pipeline.Value

noncomputable section

namespace Cert.Rbf.Arr

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## The argument arrays, and the result as their function -/

abbrev a0 (c : Dev nD) : S32768x256.Idx → EReal := m ((c : Thread nD τ).loc main_arg0)
abbrev a1 (c : Dev nD) : S1024x256.Idx → EReal := m ((c : Thread nD τ).loc main_arg1)
abbrev a2 (c : Dev nD) : S1024.Idx → EReal := m ((c : Thread nD τ).loc main_arg2)
abbrev a3 (c : Dev nD) : S32x1024.Idx → EReal := m ((c : Thread nD τ).loc main_arg3)
abbrev a4 (c : Dev nD) : S32.Idx → EReal := m ((c : Thread nD τ).loc main_arg4)
abbrev a5 (c : Dev nD) : S1024x256.Idx → EReal := m ((c : Thread nD τ).loc main_arg5)
abbrev a6 (c : Dev nD) : S1024.Idx → EReal := m ((c : Thread nD τ).loc main_arg6)
abbrev a7 (c : Dev nD) : S32x1024.Idx → EReal := m ((c : Thread nD τ).loc main_arg7)
abbrev a8 (c : Dev nD) : S32.Idx → EReal := m ((c : Thread nD τ).loc main_arg8)

/-- The result array the kernel leaves, as a function of the argument arrays at launch. -/
abbrev Gm (c : Dev nD) : S32768x64.Idx → EReal :=
  G expoMul (a0 m c) (a1 m c) (a2 m c) (a3 m c) (a4 m c) (a5 m c) (a6 m c) (a7 m c) (a8 m c)

/-! ## What the point's stores leave is the generated block function -/

theorem hz : (![0, 0] : Fin 2 → Nat) = fun _ => 0 := funext fun a => by fin_cases a <;> rfl

theorem out_eq_E8 (x0 : Vec Ideal S1024x256 .f32) (x1 : Vec Ideal S256x2048 .bf16) (x2 x3 : Vec Ideal S1x2048 .f32)
    (x4 : Vec Ideal S1024x32 .bf16) (x5 : Vec Ideal S1x32 .f32) (x6 : Vec Ideal S1024x32 .bf16) (x7 : Vec Ideal S1x32 .f32)
    (y : S1024x64.Idx) :
    out0_8 x0 x1 x2 x3 x4 x5 x6 x7 y = Cert.KernelIdeal.Value.E8 x0 x1 x2 x3 x4 x5 x6 x7 y := by
  unfold out0_8
  simp only [View.ld_unit_zero (S := S1024x256) hz, View.ld_unit_zero (S := S256x2048) hz, View.ld_unit_zero (S := S1x2048) hz,
    View.ld_unit_zero (S := S1024x32) hz, View.ld_unit_zero (S := S1x32) hz]
  exact Cert.KernelIdeal.Value.canon8_eq x0 x1 x2 x3 x4 x5 x6 x7 y

/-! ## Where each window's block sits -/

/-- The printed index maps, decided over the 32 points: the observations' and the result's blocks move down
    with the point; every other window stays on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 32 := lt_of_lt_of_eq t.isLt N_0

/-- The array row under row `p` of point `t`'s block. -/
def rowOf (t : Fin cfg0.N) (p : Fin 1024) : Fin 32768 :=
  ⟨t.val * 1024 + p.val, by have := t_lt t; have := p.isLt; omega⟩

theorem blk0 (c : Dev nD) (t : Fin cfg0.N) (p : Fin 1024) (d : Fin 256) :
    iblk m c 0 t (ix2 p d) = (V m c main_arg0 : S32768x256.Idx → EReal) (ix2 (rowOf t p) d) := by
  show (V m c main_arg0 : S32768x256.Idx → EReal) (((cfg0.win 0).blk t).view.emb (ix2 p d)) = _
  obtain ⟨e0, e1, -⟩ := idx_facts t
  refine congrArg (V m c main_arg0 : S32768x256.Idx → EReal) (funext fun a => Fin.ext ?_)
  match a with
  | ⟨0, _⟩ => show win0_0.index t (0 : Fin 2) * 1024 + 1 * p.val = t.val * 1024 + p.val; omega
  | ⟨1, _⟩ => show win0_0.index t (1 : Fin 2) * 256 + 1 * d.val = d.val; omega

theorem blk1 (c : Dev nD) (t : Fin cfg0.N) (d : Fin 256) (k : Fin 2048) :
    iblk m c 1 t (ix2 d k) = (V m c main_v4 : S256x2048.Idx → EReal) (ix2 d k) := by
  show (V m c main_v4 : S256x2048.Idx → EReal) (((cfg0.win 1).blk t).view.emb (ix2 d k)) = _
  obtain ⟨-, -, e0, e1, -⟩ := idx_facts t
  refine congrArg (V m c main_v4 : S256x2048.Idx → EReal) (funext fun a => Fin.ext ?_)
  match a with
  | ⟨0, _⟩ => show win0_1.index t (0 : Fin 2) * 256 + 1 * d.val = d.val; omega
  | ⟨1, _⟩ => show win0_1.index t (1 : Fin 2) * 2048 + 1 * k.val = k.val; omega

theorem blk2 (c : Dev nD) (t : Fin cfg0.N) (u : Fin 1) (k : Fin 2048) :
    iblk m c 2 t (ix2 u k) = (V m c main_v11 : S1x2048.Idx → EReal) (ix2 u k) := by
  show (V m c main_v11 : S1x2048.Idx → EReal) (((cfg0.win 2).blk t).view.emb (ix2 u k)) = _
  obtain ⟨-, -, -, -, e0, e1, -⟩ := idx_facts t
  refine congrArg (V m c main_v11 : S1x2048.Idx → EReal) (funext fun a => Fin.ext ?_)
  match a with
  | ⟨0, _⟩ => show win0_2.index t (0 : Fin 2) * 1 + 1 * u.val = u.val; omega
  | ⟨1, _⟩ => show win0_2.index t (1 : Fin 2) * 2048 + 1 * k.val = k.val; omega

theorem blk3 (c : Dev nD) (t : Fin cfg0.N) (u : Fin 1) (k : Fin 2048) :
    iblk m c 3 t (ix2 u k) = (V m c main_v24 : S1x2048.Idx → EReal) (ix2 u k) := by
  show (V m c main_v24 : S1x2048.Idx → EReal) (((cfg0.win 3).blk t).view.emb (ix2 u k)) = _
  obtain ⟨-, -, -, -, -, -, e0, e1, -⟩ := idx_facts t
  refine congrArg (V m c main_v24 : S1x2048.Idx → EReal) (funext fun a => Fin.ext ?_)
  match a with
  | ⟨0, _⟩ => show win0_3.index t (0 : Fin 2) * 1 + 1 * u.val = u.val; omega
  | ⟨1, _⟩ => show win0_3.index t (1 : Fin 2) * 2048 + 1 * k.val = k.val; omega

theorem blk4 (c : Dev nD) (t : Fin cfg0.N) (k : Fin 1024) (a : Fin 32) :
    iblk m c 4 t (ix2 k a) = (V m c main_v26 : S1024x32.Idx → EReal) (ix2 k a) := by
  show (V m c main_v26 : S1024x32.Idx → EReal) (((cfg0.win 4).blk t).view.emb (ix2 k a)) = _
  obtain ⟨-, -, -, -, -, -, -, -, e0, e1, -⟩ := idx_facts t
  refine congrArg (V m c main_v26 : S1024x32.Idx → EReal) (funext fun b => Fin.ext ?_)
  match b with
  | ⟨0, _⟩ => show win0_4.index t (0 : Fin 2) * 1024 + 1 * k.val = k.val; omega
  | ⟨1, _⟩ => show win0_4.index t (1 : Fin 2) * 32 + 1 * a.val = a.val; omega

theorem blk5 (c : Dev nD) (t : Fin cfg0.N) (u : Fin 1) (a : Fin 32) :
    iblk m c 5 t (ix2 u a) = (V m c main_v29 : S1x32.Idx → EReal) (ix2 u a) := by
  show (V m c main_v29 : S1x32.Idx → EReal) (((cfg0.win 5).blk t).view.emb (ix2 u a)) = _
  obtain ⟨-, -, -, -, -, -, -, -, -, -, e0, e1, -⟩ := idx_facts t
  refine congrArg (V m c main_v29 : S1x32.Idx → EReal) (funext fun b => Fin.ext ?_)
  match b with
  | ⟨0, _⟩ => show win0_5.index t (0 : Fin 2) * 1 + 1 * u.val = u.val; omega
  | ⟨1, _⟩ => show win0_5.index t (1 : Fin 2) * 32 + 1 * a.val = a.val; omega

theorem blk6 (c : Dev nD) (t : Fin cfg0.N) (k : Fin 1024) (a : Fin 32) :
    iblk m c 6 t (ix2 k a) = (V m c main_v28 : S1024x32.Idx → EReal) (ix2 k a) := by
  show (V m c main_v28 : S1024x32.Idx → EReal) (((cfg0.win 6).blk t).view.emb (ix2 k a)) = _
  obtain ⟨-, -, -, -, -, -, -, -, -, -, -, -, e0, e1, -⟩ := idx_facts t
  refine congrArg (V m c main_v28 : S1024x32.Idx → EReal) (funext fun b => Fin.ext ?_)
  match b with
  | ⟨0, _⟩ => show win0_6.index t (0 : Fin 2) * 1024 + 1 * k.val = k.val; omega
  | ⟨1, _⟩ => show win0_6.index t (1 : Fin 2) * 32 + 1 * a.val = a.val; omega

theorem blk7 (c : Dev nD) (t : Fin cfg0.N) (u : Fin 1) (a : Fin 32) :
    iblk m c 7 t (ix2 u a) = (V m c main_v30 : S1x32.Idx → EReal) (ix2 u a) := by
  show (V m c main_v30 : S1x32.Idx → EReal) (((cfg0.win 7).blk t).view.emb (ix2 u a)) = _
  obtain ⟨-, -, -, -, -, -, -, -, -, -, -, -, -, -, e0, e1, -⟩ := idx_facts t
  refine congrArg (V m c main_v30 : S1x32.Idx → EReal) (funext fun b => Fin.ext ?_)
  match b with
  | ⟨0, _⟩ => show win0_7.index t (0 : Fin 2) * 1 + 1 * u.val = u.val; omega
  | ⟨1, _⟩ => show win0_7.index t (1 : Fin 2) * 32 + 1 * a.val = a.val; omega

/-! ## What point `t` writes back is block `t` of the result function -/

theorem flushed_eq (c : Dev nD) (t : Fin cfg0.N) :
    (dats m 0 c).flushed 8 t = ((cfg0.win 8).blk t).view.read (Elt Ideal) (Gm m c) := by
  rw [Cert.KernelIdeal.Value.flushed8]
  funext y
  obtain ⟨p, j, rfl⟩ : ∃ (p : Fin 1024) (j : Fin 64), y = ix2 p j := ⟨y 0, y 1, @eq_ix2 1024 64 y⟩
  show out0_8 (iblk m c 0 t) (iblk m c 1 t) (iblk m c 2 t) (iblk m c 3 t) (iblk m c 4 t) (iblk m c 5 t) (iblk m c 6 t) (iblk m c 7 t) (ix2 p j)
    = Gm m c (((cfg0.win 8).blk t).view.emb (ix2 p j))
  have hemb : ((cfg0.win 8).blk t).view.emb (ix2 p j) = ix2 (rowOf t p) j := by
    obtain ⟨-, -, -, -, -, -, -, -, -, -, -, -, -, -, -, -, e0, e1⟩ := idx_facts t
    funext a
    apply Fin.ext
    match a with
    | ⟨0, _⟩ => show win0_8.index t (0 : Fin 2) * 1024 + 1 * p.val = t.val * 1024 + p.val; omega
    | ⟨1, _⟩ => show win0_8.index t (1 : Fin 2) * 64 + 1 * j.val = j.val; omega
  rw [hemb]
  refine (out_eq_E8 (iblk m c 0 t) (iblk m c 1 t) (iblk m c 2 t) (iblk m c 3 t) (iblk m c 4 t) (iblk m c 5 t) (iblk m c 6 t) (iblk m c 7 t) (ix2 p j)).trans ?_
  refine (Blk.block_apply (iblk m c 0 t) (iblk m c 1 t) (iblk m c 2 t) (iblk m c 3 t) (iblk m c 4 t) (iblk m c 5 t) (iblk m c 6 t) (iblk m c 7 t) p j
    (fun k d => a1 m c (ix2 k d)) (fun k => a2 m c (ix1 k)) (fun a k => a3 m c (ix2 a k)) (fun a => a4 m c (ix1 a))
    (fun k d => a5 m c (ix2 k d)) (fun k => a6 m c (ix1 k)) (fun a k => a7 m c (ix2 a k)) (fun a => a8 m c (ix1 a))
    (fun d k => (blk1 m c t d _).trans ((congrFun (Host.V_v4 m c) _).trans ((Host.joinC_left _ _ d k).trans (Host.cenT_apply _ d k))))
    (fun d k => (blk1 m c t d _).trans ((congrFun (Host.V_v4 m c) _).trans ((Host.joinC_right _ _ d k).trans (Host.cenT_apply _ d k))))
    (fun k => (blk2 m c t 0 _).trans ((congrFun (Host.V_v11 m c) _).trans ((Host.joinR_left _ _ k).trans (Host.sqRow_apply _ k))))
    (fun k => (blk2 m c t 0 _).trans ((congrFun (Host.V_v11 m c) _).trans ((Host.joinR_right _ _ k).trans (Host.sqRow_apply _ k))))
    (fun k => (blk3 m c t 0 _).trans ((congrFun (Host.V_v24 m c) _).trans ((Host.joinR_left _ _ k).trans (Host.rsRow_apply _ k))))
    (fun k => (blk3 m c t 0 _).trans ((congrFun (Host.V_v24 m c) _).trans ((Host.joinR_right _ _ k).trans (Host.rsRow_apply _ k))))
    (fun k a => (blk4 m c t k a).trans ((congrFun (Host.V_v26 m c) _).trans (Host.wT_apply _ k a)))
    (fun a => (blk5 m c t 0 a).trans ((congrFun (Host.V_v29 m c) _).trans (Host.bRow_apply _ a)))
    (fun k a => (blk6 m c t k a).trans ((congrFun (Host.V_v28 m c) _).trans (Host.wT_apply _ k a)))
    (fun a => (blk7 m c t 0 a).trans ((congrFun (Host.V_v30 m c) _).trans (Host.bRow_apply _ a)))).trans ?_
  have e0 : (fun d => iblk m c 0 t (ix2 p d)) = fun d => a0 m c (ix2 (rowOf t p) d) :=
    funext fun d => (blk0 m c t p d).trans (congrFun (V_main_arg0 m c) _)
  rw [e0]
  rfl

/-! ## The blocks tile the result -/

theorem mem_blk (t : Fin cfg0.N) (i : S32768x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v31).slice (win0_8.rect t)).set ↔ _
  rw [View.set_slice_whole, Rect.mem_set_unit]
  exact Iff.rfl

/-- Row `r` of the result lies in the block of point `r / 1024`. -/
theorem cover (i : S32768x64.Idx) :
    ∃ t : Fin cfg0.N, (cfg0.win 8).flush t = true ∧ i ∈ ((cfg0.win 8).blk t).view.set := by
  have hi0 : (i 0).val < 32768 := idx2_lt0 i
  have hi1 : (i 1).val < 64 := idx2_lt1 i
  have hN : grid0.N = 32 := N_0
  let t : Fin cfg0.N := ⟨(i 0).val / 1024, by show (i 0).val / 1024 < grid0.N; omega⟩
  have ht : t.val = (i 0).val / 1024 := rfl
  refine ⟨t, flush0_8 t, ?_⟩
  rw [mem_blk]
  obtain ⟨-, -, -, -, -, -, -, -, -, -, -, -, -, -, -, -, e0, e1⟩ := idx_facts t
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 64 ≤ (i 1).val ∧ (i 1).val < win0_8.index t (1 : Fin 2) * 64 + 64; omega

/-- The result array after the run. -/
theorem final (c : Dev nD) : (dats m 0 c).arrAt 8 cfg0.N = Gm m c :=
  (dats m 0 c).arrAt_eq_of_cover 8 (Gm m c) (fun t _ => flushed_eq m c t) cover

/-- Every weakly fair execution of the kernel's program terminates with the result array at `G` (product
    form) of the argument arrays, and the arguments unchanged. -/
theorem run : θ_run defs (onTc (τ := τ) (main (F := Ideal))) ⟨m, fun _ => 0, ρ⟩ fun r => ∀ c : Dev nD,
      r.2.mem ((c : Thread nD τ).loc main_v31) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.Rbf.Arr

end
-- ==== Proof.lean ====
/-
  A two-head radial-basis policy layer against its plain reference, over the extended reals.

  Both programs compute, for each of 32768 observation rows `x` and each head (1024 centres `c`, widths `σ`,
  32 weight rows, 32 biases), the features `exp (-(|x|² - 2·⟨x, c⟩ + |c|²) / (2·|σ|))`, their product with
  the weights plus the bias, and for the second head the clip to `[-20, 2]` followed by `exp`; the result row
  is the first head's 32 numbers followed by the second's. The kernel works block by block on 1024 rows with
  both heads' centres joined side by side, and it multiplies `0 - distance` by a reciprocal `1 / (2·|σ|)` the
  host computed on its own, where the reference divides the negated distance by `2·|σ|`.

  On the extended reals those two spellings agree exactly when no width is zero: off zero a quotient is the
  product with the inverse and `1 · y = y`; at `σ = 0` and distance `0` the product is `0 · ⊤ = 0` while the
  quotient `0 / 0` is `⊥`. The precondition therefore says, beside finiteness, that every width differs from
  zero, and that is the one fact of it the proof uses. Sums in another order or grouping, the matrix unit's
  product against the host's contraction, and the changes of float format on the way into the products are
  equalities on the extended reals and need no hypothesis.

  The kernel's result array (Proof/KernelArray.lean) is the function `G` of Proof/Spec.lean with the exponent
  in product form; the reference's (Proof/RefValue.lean) is `G` with the exponent as a quotient; where the
  widths are not zero (Proof/PreSigma.lean) the two are one function (`Cert.Rbf.G_expoMul_eq`). The ideal
  pass rewrote nothing, so the idealization claim is trivial; the three frames are the generated ones, the
  reference's being its generated run with the result dropped.
-/
import proofs.«110908_j50379966382218_2_alg».proof.Defs
import proofs.«110908_j50379966382218_2_alg».proof.Proof.Gen.Kernel
import proofs.«110908_j50379966382218_2_alg».proof.Proof.Gen.Kernel.Skeleton
import proofs.«110908_j50379966382218_2_alg».proof.Proof.Gen.Kernel.Launch
import proofs.«110908_j50379966382218_2_alg».proof.Proof.Gen.Kernel.Points
import proofs.«110908_j50379966382218_2_alg».proof.Proof.Gen.Kernel.Frame
import proofs.«110908_j50379966382218_2_alg».proof.Proof.Gen.KernelIdeal
import proofs.«110908_j50379966382218_2_alg».proof.Proof.Gen.KernelIdeal.Skeleton
import proofs.«110908_j50379966382218_2_alg».proof.Proof.Gen.KernelIdeal.Launch
import proofs.«110908_j50379966382218_2_alg».proof.Proof.Gen.KernelIdeal.Points
import proofs.«110908_j50379966382218_2_alg».proof.Proof.Gen.KernelIdeal.Frame
import proofs.«110908_j50379966382218_2_alg».proof.Proof.Gen.ReferenceIdeal
import proofs.«110908_j50379966382218_2_alg».proof.Proof.Gen.Pre_finite_inputs
import proofs.«110908_j50379966382218_2_alg».proof.Proof.Gen.KernelIdeal.Value
import proofs.«110908_j50379966382218_2_alg».proof.Proof.Gen.ReferenceIdeal.Run
import proofs.«110908_j50379966382218_2_alg».proof.Proof.Gen.ReferenceIdeal.Read
import proofs.«110908_j50379966382218_2_alg».proof.Proof.Spec
import proofs.«110908_j50379966382218_2_alg».proof.Proof.PreSigma
import proofs.«110908_j50379966382218_2_alg».proof.Proof.RefValue
import proofs.«110908_j50379966382218_2_alg».proof.Proof.KernelArray
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments, with no width zero, both programs end with the result
    array at `G` with the exponent as a quotient: the kernel's product form is that function where the widths
    are not zero, and the reference's term is it outright. -/
theorem algebraic : Cert.algebraic_KernelIdeal_ReferenceIdeal := by
  intro m ρ m' ρ' hpre hagree
  refine ⟨fun c => Cert.Rbf.G Cert.Rbf.expoDiv (Cert.Rbf.Arr.a0 m c) (Cert.Rbf.Arr.a1 m c) (Cert.Rbf.Arr.a2 m c)
      (Cert.Rbf.Arr.a3 m c) (Cert.Rbf.Arr.a4 m c) (Cert.Rbf.Arr.a5 m c) (Cert.Rbf.Arr.a6 m c) (Cert.Rbf.Arr.a7 m c)
      (Cert.Rbf.Arr.a8 m c), ?_, ?_⟩
  · refine (θ_run Cert.KernelIdeal.defs _ _).mono (fun r h c => ⟨(h c).1.trans ?_, (h c).2⟩) (Cert.Rbf.Arr.run m ρ)
    obtain ⟨hm, hs⟩ := Cert.Rbf.Pre.sigma_ne_zero _ _ _ _ _ _ _ _ _ (hpre c)
    exact Cert.Rbf.G_expoMul_eq _ _ _ _ _ _ _ _ _ hm hs
  · refine (θ_run Cert.ReferenceIdeal.defs _ _).mono (fun r h c => ⟨?_, (h c).2⟩)
      (Cert.ReferenceIdeal.Value.run (F := Ideal) m' ρ')
    rw [(h c).1, Cert.ReferenceIdeal.Read.val_main_v56_eq, Cert.Rbf.Ref.ref_is_G, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
